-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x8192x16 : Shape := ⟨3, ![256, 8192, 16]⟩
abbrev S256x8192x11 : Shape := ⟨3, ![256, 8192, 11]⟩
abbrev S256x1x128x128 : Shape := ⟨4, ![256, 1, 128, 128]⟩
abbrev S_ : Shape := ⟨0, ![]⟩

class Facts : Prop where
  bcast_S_S256x8192x16 : S_.BroadcastsInDim S256x8192x16 (![] : Fin 0 → Fin S256x8192x16.rank)
  reducesTo_S256x8192x16_S_d0_1_2 : S256x8192x16.ReducesTo [0, 1, 2] S_
  h_S_ : 0 < S_.numel
  bcast_S_S256x8192x11 : S_.BroadcastsInDim S256x8192x11 (![] : Fin 0 → Fin S256x8192x11.rank)
  reducesTo_S256x8192x11_S_d0_1_2 : S256x8192x11.ReducesTo [0, 1, 2] S_
  bcast_S_S256x1x128x128 : S_.BroadcastsInDim S256x1x128x128 (![] : Fin 0 → Fin S256x1x128x128.rank)
  reducesTo_S256x1x128x128_S_d0_1_2_3 : S256x1x128x128.ReducesTo [0, 1, 2, 3] S_

variable [Facts]

def fn {F : FTy → Type} [FloatOps F] (main_arg0 : FVec F S256x8192x16 .f32) (main_arg1 : FVec F S256x8192x11 .f32) (main_arg2 : FVec F S256x1x128x128 .f32) : IVec S_ 1 :=
  let main_v0 : FVec F S256x8192x16 .f32 := Host.absf main_arg0
  let main_cst : FVec F S_ .f32 := constant S_ .f32 0x7F800000#32
  let main_v1 : FVec F S256x8192x16 .f32 := broadcastInDim S256x8192x16 ![] bcast_S_S256x8192x16 main_cst
  let main_v2 : IVec S256x8192x16 1 := cmpf .olt main_v0 main_v1
  let main_c : IVec S_ 1 := constantI S_ 1 1#1
  let main_v3 : IVec S_ 1 := (fun x v => Host.reduce IntOp.andi x v reducesTo_S256x8192x16_S_d0_1_2 h_S_) main_v2 main_c
  let main_v4 : FVec F S256x8192x11 .f32 := Host.absf main_arg1
  let main_cst_0 : FVec F S_ .f32 := constant S_ .f32 0x7F800000#32
  let main_v5 : FVec F S256x8192x11 .f32 := broadcastInDim S256x8192x11 ![] bcast_S_S256x8192x11 main_cst_0
  let main_v6 : IVec S256x8192x11 1 := cmpf .olt main_v4 main_v5
  let main_c_1 : IVec S_ 1 := constantI S_ 1 1#1
  let main_v7 : IVec S_ 1 := (fun x v => Host.reduce IntOp.andi x v reducesTo_S256x8192x11_S_d0_1_2 h_S_) main_v6 main_c_1
  let main_v8 : IVec S_ 1 := andi main_v3 main_v7
  let main_v9 : FVec F S256x1x128x128 .f32 := Host.absf main_arg2
  let main_cst_2 : FVec F S_ .f32 := constant S_ .f32 0x7F800000#32
  let main_v10 : FVec F S256x1x128x128 .f32 := broadcastInDim S256x1x128x128 ![] bcast_S_S256x1x128x128 main_cst_2
  let main_v11 : IVec S256x1x128x128 1 := cmpf .olt main_v9 main_v10
  let main_c_3 : IVec S_ 1 := constantI S_ 1 1#1
  let main_v12 : IVec S_ 1 := (fun x v => Host.reduce IntOp.andi x v reducesTo_S256x1x128x128_S_d0_1_2_3 h_S_) main_v11 main_c_3
  let main_v13 : IVec S_ 1 := andi main_v8 main_v12
  main_v13
-- ==== Kernel.lean ====
abbrev S256x8192x16 : Shape := ⟨3, ![256, 8192, 16]⟩
abbrev S256x8192x11 : Shape := ⟨3, ![256, 8192, 11]⟩
abbrev S256x1x128x128 : Shape := ⟨4, ![256, 1, 128, 128]⟩
abbrev S256 : Shape := ⟨1, ![256]⟩
abbrev S128x64x16 : Shape := ⟨3, ![128, 64, 16]⟩
abbrev S128x64x11 : Shape := ⟨3, ![128, 64, 11]⟩
abbrev S128 : Shape := ⟨1, ![128]⟩
abbrev S128x64x7 : Shape := ⟨3, ![128, 64, 7]⟩
abbrev S128x64 : Shape := ⟨2, ![128, 64]⟩
abbrev S128x64x1 : Shape := ⟨3, ![128, 64, 1]⟩

abbrev nBuf : Space → Nat
  | .hbm => 4
  | .vmem => 7
  | .smem => 0
  | _ => 0

abbrev bufTy : (tb : Table) → Fin (tcTables nBuf tb) → BufTy
  | .hbm, ⟨0, _⟩ => ⟨S256x8192x16, .f32⟩
  | .hbm, ⟨1, _⟩ => ⟨S256x8192x11, .f32⟩
  | .hbm, ⟨2, _⟩ => ⟨S256x1x128x128, .f32⟩
  | .hbm, ⟨3, _⟩ => ⟨S256, .f32⟩
  | .local _ .vmem, ⟨0, _⟩ => ⟨S128x64x16, .f32⟩
  | .local _ .vmem, ⟨1, _⟩ => ⟨S128x64x16, .f32⟩
  | .local _ .vmem, ⟨2, _⟩ => ⟨S128x64x11, .f32⟩
  | .local _ .vmem, ⟨3, _⟩ => ⟨S128x64x11, .f32⟩
  | .local _ .vmem, ⟨4, _⟩ => ⟨S128, .f32⟩
  | .local _ .vmem, ⟨5, _⟩ => ⟨S128, .f32⟩
  | .local _ .vmem, ⟨6, _⟩ => ⟨S128, .f32⟩
  | _, _ => ⟨S256x8192x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 128], ![false, false]⟩

def k0_cond2 (i : grid0.Coords) : BitVec 1 :=
  let arg1 : BitVec 32 := BitVec.ofNat 32 (i 1).val
  let c127_i32 : BitVec 32 := 127#32
  let v33 : BitVec 1 := Scalar.cmpi .eq arg1 c127_i32
  let v34 : BitVec 32 := Scalar.extui v33
  let c0_i32_14 : BitVec 32 := 0#32
  let v35 : BitVec 1 := Scalar.cmpi .ne v34 c0_i32_14
  v35

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

abbrev stage0_0 : Fin 2 → Memref sig .tc .vmem S128x64x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x64x11 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S128_S128_0 : ∀ a, (![0] : Fin 1 → Nat) a + S128.size a ≤ S128.size a
  h_S128 : 0 < S128.numel
  shapeCasts_S128_S128 : S128.ShapeCasts S128
  inb_S128x64x16_S128x64x16_0_0_0 : ∀ a, (![0, 0, 0] : Fin 3 → Nat) a + S128x64x16.size a ≤ S128x64x16.size a
  h_S128x64x16 : 0 < S128x64x16.numel
  inb_S128x64x11_S128x64x11_0_0_0 : ∀ a, (![0, 0, 0] : Fin 3 → Nat) a + S128x64x11.size a ≤ S128x64x11.size a
  h_S128x64x11 : 0 < S128x64x11.numel
  slices_S128x64x16_o0_0_0_S128x64x7 : S128x64x16.Slices ![0, 0, 0] S128x64x7
  slices_S128x64x11_o0_0_0_S128x64x7 : S128x64x11.Slices ![0, 0, 0] S128x64x7
  reduces_S128x64x7_S128x64 : S128x64x7.Reduces [2] S128x64
  slices_S128x64x11_o0_0_9_S128x64x1 : S128x64x11.Slices ![0, 0, 9] S128x64x1
  shapeCasts_S128x64x1_S128x64 : S128x64x1.ShapeCasts S128x64
  slices_S128x64x11_o0_0_10_S128x64x1 : S128x64x11.Slices ![0, 0, 10] S128x64x1
  reduces_S128x64_S128 : S128x64.Reduces [1] S128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x64x16.size a ≤ S256x8192x16.size a
  hwx0_0 : ∀ i : grid0.Coords, EltTy.bits .f32 = 32 ∨ (Rect.block (s := S256x8192x16) S128x64x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x64x11.size a ≤ S256x8192x11.size a
  hwx0_1 : ∀ i : grid0.Coords, EltTy.bits .f32 = 32 ∨ (Rect.block (s := S256x8192x11) S128x64x11.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S256.size a
  hwx0_2 : ∀ i : grid0.Coords, EltTy.bits .f32 = 32 ∨ (Rect.block (s := S256) S128.size (cc0_transform_2 i) (hinb0_2 i)).WholeWords (EltTy.packing .f32)

variable [Facts₀]

abbrev win0_0 : Pipeline.Window sig grid0 :=
  Pipeline.Window.ofSpec (Memref.whole main_arg0) S128x64x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x64x11.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S256x8192x16 : Shape := ⟨3, ![256, 8192, 16]⟩
abbrev S256x8192x11 : Shape := ⟨3, ![256, 8192, 11]⟩
abbrev S256x1x128x128 : Shape := ⟨4, ![256, 1, 128, 128]⟩
abbrev S256x8192x1 : Shape := ⟨3, ![256, 8192, 1]⟩
abbrev S256x8192 : Shape := ⟨2, ![256, 8192]⟩
abbrev S_ : Shape := ⟨0, ![]⟩
abbrev S256x8192x7 : Shape := ⟨3, ![256, 8192, 7]⟩
abbrev S256 : Shape := ⟨1, ![256]⟩

abbrev nBuf : Space → Nat
  | .hbm => 33
  | .vmem => 0
  | .smem => 0
  | _ => 0

abbrev bufTy : (tb : Table) → Fin (tcTables nBuf tb) → BufTy
  | .hbm, ⟨0, _⟩ => ⟨S256x8192x16, .f32⟩
  | .hbm, ⟨1, _⟩ => ⟨S256x8192x11, .f32⟩
  | .hbm, ⟨2, _⟩ => ⟨S256x1x128x128, .f32⟩
  | .hbm, ⟨3, _⟩ => ⟨S256x8192x1, .f32⟩
  | .hbm, ⟨4, _⟩ => ⟨S256x8192, .f32⟩
  | .hbm, ⟨5, _⟩ => ⟨S256x8192x1, .f32⟩
  | .hbm, ⟨6, _⟩ => ⟨S256x8192, .f32⟩
  | .hbm, ⟨7, _⟩ => ⟨S_, .f32⟩
  | .hbm, ⟨8, _⟩ => ⟨S256x8192, .f32⟩
  | .hbm, ⟨9, _⟩ => ⟨S256x8192, .i1⟩
  | .hbm, ⟨10, _⟩ => ⟨S_, .f32⟩
  | .hbm, ⟨11, _⟩ => ⟨S256x8192, .f32⟩
  | .hbm, ⟨12, _⟩ => ⟨S256x8192, .i1⟩
  | .hbm, ⟨13, _⟩ => ⟨S256x8192, .i1⟩
  | .hbm, ⟨14, _⟩ => ⟨S_, .f32⟩
  | .hbm, ⟨15, _⟩ => ⟨S256x8192, .f32⟩
  | .hbm, ⟨16, _⟩ => ⟨S256x8192, .i1⟩
  | .hbm, ⟨17, _⟩ => ⟨S256x8192, .i1⟩
  | .hbm, ⟨18, _⟩ => ⟨S_, .f32⟩
  | .hbm, ⟨19, _⟩ => ⟨S256x8192, .f32⟩
  | .hbm, ⟨20, _⟩ => ⟨S256x8192, .i1⟩
  | .hbm, ⟨21, _⟩ => ⟨S256x8192, .i1⟩
  | .hbm, ⟨22, _⟩ => ⟨S256x8192x7, .f32⟩
  | .hbm, ⟨23, _⟩ => ⟨S256x8192x7, .f32⟩
  | .hbm, ⟨24, _⟩ => ⟨S256x8192x7, .f32⟩
  | .hbm, ⟨25, _⟩ => ⟨S256x8192x7, .f32⟩
  | .hbm, ⟨26, _⟩ => ⟨S_, .f32⟩
  | .hbm, ⟨27, _⟩ => ⟨S256x8192, .f32⟩
  | .hbm, ⟨28, _⟩ => ⟨S_, .f32⟩
  | .hbm, ⟨29, _⟩ => ⟨S256x8192, .f32⟩
  | .hbm, ⟨30, _⟩ => ⟨S256x8192, .f32⟩
  | .hbm, ⟨31, _⟩ => ⟨S_, .f32⟩
  | .hbm, ⟨32, _⟩ => ⟨S256, .f32⟩
  | _, _ => ⟨S256x8192x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩

abbrev nD : Nat := 1
abbrev τ : Topo := Topo.v7x

variable {F : FTy → Type} [FloatOps F]

class Facts₀ : Prop where
  slices_S256x8192x11_S256x8192x1_0_0_9 : S256x8192x11.Slices ![0, 0, 9] S256x8192x1
  shapeCasts_S256x8192x1_S256x8192 : S256x8192x1.ShapeCasts S256x8192
  slices_S256x8192x11_S256x8192x1_0_0_10 : S256x8192x11.Slices ![0, 0, 10] S256x8192x1
  bcast_S_S256x8192 : S_.BroadcastsInDim S256x8192 (![] : Fin 0 → Fin S256x8192.rank)
  slices_S256x8192x16_S256x8192x7_0_0_0 : S256x8192x16.Slices ![0, 0, 0] S256x8192x7
  slices_S256x8192x11_S256x8192x7_0_0_0 : S256x8192x11.Slices ![0, 0, 0] S256x8192x7
  reducesTo_S256x8192x7_S256x8192_d2 : S256x8192x7.ReducesTo [2] S256x8192
  h_S_ : 0 < S_.numel
  reducesTo_S256x8192_S256_d1 : S256x8192.ReducesTo [1] S256

variable [Facts₀]

class Facts : Prop extends Facts₀ where

variable [Facts]
-- ==== Proof.Spec.lean ====
/-
  The masked squared-error loss as one function of the argument arrays. For a batch row `b` the result is the sum,
  over the objects `o`, of the squared distance of the first seven channels of `pred` and `gt`, counted only where
  the object's centre (channels 9 and 10 of `gt`) lies strictly between 0 and 128 on both axes. Stated once over
  arbitrary extents, so that the same terms describe a whole array and one block of it; and the one law that joins a
  sum taken block by block to the sum taken at once: a sum over `64 · n` consecutive naturals is the sum of the `n`
  block sums. Only commutativity and associativity of addition on the extended reals are used.
-/
import Idealize.ShloMosaic.PureOps.Ideal
import Idealize.ShloMosaic.PureOps.Ideal.Laws
import Idealize.ShloMosaic.Lib.ValueIdx
import Mathlib.Algebra.BigOperators.Fin

noncomputable section

namespace Cert.LossSpec

open Idealize.ShloMosaic Idealize.ShloMosaic.ValueIdx
open scoped BigOperators

variable {B O : Nat}

/-- The first seven channels, as channels of `pred` (16 of them) and of `gt` (11 of them). -/
abbrev chP (k : Fin 7) : Fin 16 := ⟨k.val, by omega⟩
abbrev chG (k : Fin 7) : Fin 11 := ⟨k.val, by omega⟩

/-- The mask bit of object `(b, o)`: `cx > 0 ∧ cy > 0 ∧ cx < 128 ∧ cy < 128`, the conjunction taken in the programs' order. -/
def inside (g : (⟨3, ![B, O, 11]⟩ : Shape).Idx → EReal) (b : Fin B) (o : Fin O) : BitVec 1 :=
  IntOp.andi (IntOp.andi (IntOp.andi
    (Ideal.cmp .ogt (g (ix3 b o (9 : Fin 11))) 0)
    (Ideal.cmp .ogt (g (ix3 b o (10 : Fin 11))) 0))
    (Ideal.cmp .olt (g (ix3 b o (9 : Fin 11))) (Ideal.ofBits .f32 0x43000000#32)))
    (Ideal.cmp .olt (g (ix3 b o (10 : Fin 11))) (Ideal.ofBits .f32 0x43000000#32))

/-- The squared distance of the first seven channels of object `(b, o)`. -/
def sqdist (p : (⟨3, ![B, O, 16]⟩ : Shape).Idx → EReal) (g : (⟨3, ![B, O, 11]⟩ : Shape).Idx → EReal) (b : Fin B) (o : Fin O) : EReal :=
  ∑ k : Fin 7, (p (ix3 b o (chP k)) - g (ix3 b o (chG k))) * (p (ix3 b o (chP k)) - g (ix3 b o (chG k)))

/-- One object's contribution: its squared distance where the mask bit is set, zero elsewhere. -/
def masked (p : (⟨3, ![B, O, 16]⟩ : Shape).Idx → EReal) (g : (⟨3, ![B, O, 11]⟩ : Shape).Idx → EReal) (b : Fin B) (o : Fin O) : EReal :=
  Scalar.select (inside g b o) (sqdist p g b o) 0

/-- A row's loss: the sum of its objects' contributions. -/
def loss (p : (⟨3, ![B, O, 16]⟩ : Shape).Idx → EReal) (g : (⟨3, ![B, O, 11]⟩ : Shape).Idx → EReal) (b : Fin B) : EReal :=
  ∑ o : Fin O, masked p g b o

/-- The result array: every row's loss. -/
def G (p : (⟨3, ![B, O, 16]⟩ : Shape).Idx → EReal) (g : (⟨3, ![B, O, 11]⟩ : Shape).Idx → EReal) : (⟨1, ![B]⟩ : Shape).Idx → EReal :=
  fun i => loss p g (i 0)

/-- An object's contribution with the object named by two naturals (zero outside the array), so that sums over runs of
    objects can be written over `Finset.range`. -/
def maskedN (p : (⟨3, ![B, O, 16]⟩ : Shape).Idx → EReal) (g : (⟨3, ![B, O, 11]⟩ : Shape).Idx → EReal) (b o : Nat) : EReal :=
  if h : b < B ∧ o < O then masked p g ⟨b, h.1⟩ ⟨o, h.2⟩ else 0

theorem maskedN_of_lt (p : (⟨3, ![B, O, 16]⟩ : Shape).Idx → EReal) (g : (⟨3, ![B, O, 11]⟩ : Shape).Idx → EReal) (b : Fin B) (o : Fin O) :
    maskedN p g b.val o.val = masked p g b o := by
  unfold maskedN
  rw [dif_pos ⟨b.isLt, o.isLt⟩]

/-- A row's loss as a sum over a range of naturals. -/
theorem loss_eq_range (p : (⟨3, ![B, O, 16]⟩ : Shape).Idx → EReal) (g : (⟨3, ![B, O, 11]⟩ : Shape).Idx → EReal) (b : Fin B) :
    loss p g b = ∑ o ∈ Finset.range O, maskedN p g b.val o := by
  unfold loss
  rw [← Fin.sum_univ_eq_sum_range (fun o => maskedN p g b.val o) O]
  exact Finset.sum_congr rfl fun o _ => (maskedN_of_lt p g b o).symm

/-- A sum over `w · n` consecutive naturals is the sum of the `n` sums over the consecutive runs of length `w`. -/
theorem sum_runs {M : Type*} [AddCommMonoid M] (f : Nat → M) (w : Nat) :
    ∀ n : Nat, ∑ s ∈ Finset.range n, ∑ j ∈ Finset.range w, f (w * s + j) = ∑ o ∈ Finset.range (w * n), f o
  | 0 => by simp
  | n + 1 => by
    rw [Finset.sum_range_succ, sum_runs f w n, Nat.mul_succ, Finset.sum_range_add]

/-- An object's contribution depends only on its own channels: two arrays that agree on them give the same contribution. -/
theorem masked_congr {B' O' : Nat} (x0 : (⟨3, ![B, O, 16]⟩ : Shape).Idx → EReal) (x1 : (⟨3, ![B, O, 11]⟩ : Shape).Idx → EReal)
    (p : (⟨3, ![B', O', 16]⟩ : Shape).Idx → EReal) (g : (⟨3, ![B', O', 11]⟩ : Shape).Idx → EReal)
    (r : Fin B) (j : Fin O) (b : Fin B') (o : Fin O')
    (h0 : ∀ k : Fin 16, x0 (ix3 r j k) = p (ix3 b o k)) (h1 : ∀ k : Fin 11, x1 (ix3 r j k) = g (ix3 b o k)) :
    masked x0 x1 r j = masked p g b o := by
  unfold masked inside sqdist
  simp only [h0, h1]

/-- What grid step `n` adds at row `r` of its block: the step works on the row block `n / 128` and on the 64 objects
    from `64 · (n % 128)` on. -/
def addend (p : (⟨3, ![256, 8192, 16]⟩ : Shape).Idx → EReal) (g : (⟨3, ![256, 8192, 11]⟩ : Shape).Idx → EReal) (n r : Nat) : EReal :=
  ∑ j ∈ Finset.range 64, maskedN p g (128 * (n / 128) + r) (64 * (n % 128) + j)

/-- The 128 steps of one row block add up, at each of its rows, to the row's loss: the block sums of 64 objects each
    are the sum over all 8192 objects. -/
theorem run_total (p : (⟨3, ![256, 8192, 16]⟩ : Shape).Idx → EReal) (g : (⟨3, ![256, 8192, 11]⟩ : Shape).Idx → EReal)
    (q r : Nat) (hb : 128 * q + r < 256) :
    0 + ∑ s ∈ Finset.range 128, addend p g (128 * q + s) r = loss p g ⟨128 * q + r, hb⟩ := by
  rw [zero_add, loss_eq_range]
  refine Eq.trans ?_ (sum_runs (fun o => maskedN p g (128 * q + r) o) 64 128)
  refine Finset.sum_congr rfl fun s hs => ?_
  have hs' : s < 128 := Finset.mem_range.mp hs
  unfold addend
  rw [show (128 * q + s) / 128 = q by omega, show (128 * q + s) % 128 = s by omega]

end Cert.LossSpec

end
-- ==== Proof.RefValue.lean ====
/-
  The reference's result, index by index: row `b` of its last stage is zero plus the sum over all 8192 objects of the
  selected squared distance, every operand read at `(b, o, channel)` of the argument arrays — the row's loss.
-/
import proofs.«148662_j59115929862965_2_alg».proof.Proof.Gen.ReferenceIdeal.Read
import proofs.«148662_j59115929862965_2_alg».proof.Proof.Spec
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx Cert.LossSpec
open scoped BigOperators

/-- The centre channels of object `(b, o)` as the reference reaches them: a slice, then a reshape that drops the unit axis. -/
theorem idx_cx (b : Fin 256) (o : Fin 8192) : idx_main_v0 (idx_main_v1 (idx_main_v22 (ix1 b) o)) = ix3 b o (9 : Fin 11) := by
  funext a
  apply Fin.ext
  match a with
  | ⟨0, _⟩ => show (b.val * 8192 + o.val) / 8192 = b.val; omega
  | ⟨1, _⟩ => show (b.val * 8192 + o.val) / 1 % 8192 = o.val; omega
  | ⟨2, _⟩ => rfl

theorem idx_cy (b : Fin 256) (o : Fin 8192) : idx_main_v2 (idx_main_v3 (idx_main_v22 (ix1 b) o)) = ix3 b o (10 : Fin 11) := by
  funext a
  apply Fin.ext
  match a with
  | ⟨0, _⟩ => show (b.val * 8192 + o.val) / 8192 = b.val; omega
  | ⟨1, _⟩ => show (b.val * 8192 + o.val) / 1 % 8192 = o.val; omega
  | ⟨2, _⟩ => rfl

/-- Channel `k` of the first seven of object `(b, o)`, in `pred` and in `gt`. -/
theorem idx_p (b : Fin 256) (o : Fin 8192) (k : Fin 7) : idx_main_v15 (idx_main_v19 (idx_main_v22 (ix1 b) o) k) = ix3 b o (chP k) := by
  funext a
  apply Fin.ext
  match a with
  | ⟨0, _⟩ => rfl
  | ⟨1, _⟩ => rfl
  | ⟨2, _⟩ => rfl

theorem idx_g (b : Fin 256) (o : Fin 8192) (k : Fin 7) : idx_main_v16 (idx_main_v19 (idx_main_v22 (ix1 b) o) k) = ix3 b o (chG k) := by
  funext a
  apply Fin.ext
  match a with
  | ⟨0, _⟩ => rfl
  | ⟨1, _⟩ => rfl
  | ⟨2, _⟩ => rfl

/-- The reference's last stage is the loss of every row. -/
theorem ref_eq (x0 : S256x8192x16.Idx → EReal) (x1 : S256x8192x11.Idx → EReal) :
    val_main_v22 (F := Ideal) x0 x1 = G x0 x1 := by
  funext i
  obtain ⟨b, rfl⟩ : ∃ b : Fin 256, i = ix1 b := ⟨i 0, eq_ix1 i⟩
  show _ = loss x0 x1 b
  unfold loss masked inside sqdist
  rw [val_main_v22_apply]
  simp only [val_main_v21_apply, val_main_v14_apply, val_main_v11_apply, val_main_v8_apply, val_main_v5_apply, val_main_v7_apply,
    val_main_v10_apply, val_main_v13_apply, val_main_v1_apply, val_main_v3_apply, val_main_v0_apply, val_main_v2_apply,
    val_main_v4_apply, val_main_v6_apply, val_main_v9_apply, val_main_v12_apply, val_main_v20_apply, val_main_cst_apply,
    val_main_cst_0_apply, val_main_cst_1_apply, val_main_cst_2_apply, val_main_cst_3_apply, val_main_cst_4_apply, val_main_cst_5_apply,
    val_main_v19_apply, val_main_v18_apply, val_main_v17_apply, val_main_v15_apply, val_main_v16_apply,
    idx_cx, idx_cy, idx_p, idx_g, Ideal.cmpf_def, Ideal.ofBits_def, Ideal.ofBits_zero_f32, Ideal.subf_def, Ideal.mulf_def, zero_add]

end Cert.ReferenceIdeal.RefValue

end
-- ==== Proof.Pieces.lean ====
/-
  What one run of the kernel body leaves behind, as values. The body keeps a running sum in a scratch vector of 128
  entries: at the first step along the object axis it stores zero there, at every step it stores the scratch plus the
  step's block sum, and at the last step it copies the scratch to the output block. So in each of the three cases the
  scratch (and, in the last, the output block) ends at the body's one arithmetic term of the two input blocks and of
  what the scratch held before — at the first step, of the zero vector just stored.
-/
import proofs.«148662_j59115929862965_2_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem hz1 : (![0] : Fin 1 → Nat) = fun _ => 0 := funext fun a => by fin_cases a; rfl
theorem hz3 : (![0, 0, 0] : Fin 3 → Nat) = fun _ => 0 := funext fun a => by fin_cases a <;> rfl

/-- A middle step: the scratch ends at the body's term of the blocks and of what it held. -/
theorem scratch_B (c : Dev nD) (i : grid0.Coords) (a2 : Memref sig .tc .vmem S128x64x16 .f32) (h2 : a2.IsWhole)
    (a3 : Memref sig .tc .vmem S128x64x11 .f32) (h3 : a3.IsWhole) (a4 : Memref sig .tc .vmem S128 .f32) (h4 : a4.IsWhole)
    (a5 : Memref sig .tc .vmem S128 .f32) (h5 : a5.IsWhole) (hc0 : ¬cond0_0 i) (hc1 : ¬cond0_1 i)
    (x0 : Vec F S128x64x16 .f32) (x1 : Vec F S128x64x11 .f32) (xs0 : Vec F S128 .f32) :
    sout0_B_0 c i a2 h2 a3 h3 a4 h4 a5 h5 hc0 hc1 x0 x1 xs0 = k0_pay2 x0 x1 xs0 := by
  unfold sout0_B_0
  rw [View.read_writes_eq_canon _ _ _ (scover0_B_0 c i a2 h2 a3 h3 a4 h4 a5 h5 hc0 hc1 x0 x1 xs0)]
  unfold kernelRun0_B
  dsimp only
  rw [View.canon_unit_zero hz1]
  simp only [View.readAt_eq_ld, h2.read_unread, h3.read_unread, h5.read_unread, View.ld_unit_zero (S := S128x64x16) hz3,
    View.ld_unit_zero (S := S128x64x11) hz3, View.ld_unit_zero (S := S128) hz1]

/-- The last step: the scratch ends at the same term, -/
theorem scratch_C (c : Dev nD) (i : grid0.Coords) (a2 : Memref sig .tc .vmem S128x64x16 .f32) (h2 : a2.IsWhole)
    (a3 : Memref sig .tc .vmem S128x64x11 .f32) (h3 : a3.IsWhole) (a4 : Memref sig .tc .vmem S128 .f32) (h4 : a4.IsWhole)
    (a5 : Memref sig .tc .vmem S128 .f32) (h5 : a5.IsWhole) (hc0 : ¬cond0_0 i) (hc1 : cond0_1 i)
    (x0 : Vec F S128x64x16 .f32) (x1 : Vec F S128x64x11 .f32) (xs0 : Vec F S128 .f32) :
    sout0_C_0 c i a2 h2 a3 h3 a4 h4 a5 h5 hc0 hc1 x0 x1 xs0 = k0_pay2 x0 x1 xs0 := by
  unfold sout0_C_0
  rw [View.read_writes_eq_canon _ _ _ (scover0_C_0 c i a2 h2 a3 h3 a4 h4 a5 h5 hc0 hc1 x0 x1 xs0)]
  unfold kernelRun0_C
  dsimp only
  sl_unfold_words
  rw [View.canon_unit_zero hz1]
  simp only [View.readAt_eq_ld, h2.read_unread, h3.read_unread, h5.read_unread, View.ld_unit_zero (S := S128x64x16) hz3,
    View.ld_unit_zero (S := S128x64x11) hz3, View.ld_unit_zero (S := S128) hz1]

/-- and the output block, copied from the scratch, too. -/
theorem out_C (c : Dev nD) (i : grid0.Coords) (a2 : Memref sig .tc .vmem S128x64x16 .f32) (h2 : a2.IsWhole)
    (a3 : Memref sig .tc .vmem S128x64x11 .f32) (h3 : a3.IsWhole) (a4 : Memref sig .tc .vmem S128 .f32) (h4 : a4.IsWhole)
    (a5 : Memref sig .tc .vmem S128 .f32) (h5 : a5.IsWhole) (hc0 : ¬cond0_0 i) (hc1 : cond0_1 i)
    (x0 : Vec F S128x64x16 .f32) (x1 : Vec F S128x64x11 .f32) (xs0 : Vec F S128 .f32) :
    out0_C_2 c i a2 h2 a3 h3 a4 h4 a5 h5 hc0 hc1 x0 x1 xs0 = k0_pay2 x0 x1 xs0 := by
  unfold out0_C_2
  rw [View.read_writes_eq_canon _ _ _ (cover0_C_2 c i a2 h2 a3 h3 a4 h4 a5 h5 hc0 hc1 x0 x1 xs0)]
  unfold kernelRun0_C
  dsimp only
  sl_unfold_words
  rw [View.canon_unit_zero (S := S128) hz1, View.readCov_unit_zero (S := S128) _ hz1]
  simp only [View.readAt_eq_ld, h2.read_unread, h3.read_unread, h5.read_unread, View.ld_unit_zero (S := S128x64x16) hz3,
    View.ld_unit_zero (S := S128x64x11) hz3, View.ld_unit_zero (S := S128) hz1]

/-- The first step: the scratch is reset to the zero vector first, so it ends at the term of the blocks and of that vector. -/
theorem scratch_A (c : Dev nD) (i : grid0.Coords) (a2 : Memref sig .tc .vmem S128x64x16 .f32) (h2 : a2.IsWhole)
    (a3 : Memref sig .tc .vmem S128x64x11 .f32) (h3 : a3.IsWhole) (a4 : Memref sig .tc .vmem S128 .f32) (h4 : a4.IsWhole)
    (a5 : Memref sig .tc .vmem S128 .f32) (h5 : a5.IsWhole) (hc0 : cond0_0 i) (hc1 : ¬cond0_1 i)
    (x0 : Vec F S128x64x16 .f32) (x1 : Vec F S128x64x11 .f32) :
    sout0_A_0 c i a2 h2 a3 h3 a4 h4 a5 h5 hc0 hc1 x0 x1 = k0_pay2 x0 x1 (k0_pay1 (F := F)) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S128) hz1, View.readCov_unit_zero (S := S128) _ hz1]
  simp only [View.readAt_eq_ld, h2.read_unread, h3.read_unread, View.ld_unit_zero (S := S128x64x16) hz3,
    View.ld_unit_zero (S := S128x64x11) hz3]

end Cert.KernelIdeal.Pieces

end
-- ==== Proof.Payload.lean ====
/-
  The body's arithmetic read at one entry, over the extended reals. For a row `r` of the block the term is what the
  scratch held at `r` plus the block's loss at `r`: the sum over the block's 64 objects of the squared distance of the
  first seven channels where the mask bit is set, zero elsewhere. The zero vector stored at the first step is zero.
-/
import proofs.«148662_j59115929862965_2_alg».proof.Proof.Gen.KernelIdeal.Skeleton
import proofs.«148662_j59115929862965_2_alg».proof.Proof.Spec
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx Cert.LossSpec
open scoped BigOperators

/-- A sum along the last of two axes, read at a row. -/
theorem rowSum (v : FVec Ideal S128x64 .f32) (h : S128x64.Reduces [1] S128) (hφ : FKind.Formats .f32)
    (hacc : (0x00000000#32 : BitVec 32) = FKind.add.neutral .f32 hφ) (r : Fin 128) :
    multiReduction .add [1] S128 v 0x00000000#32 h hφ hacc (ix1 r) = ∑ j : Fin 64, v (ix2 r j) := by
  refine (Ideal.multiReduction_add_single v 0x00000000#32 h hφ hacc (ix1 r)).trans ?_
  show ∑ j : Fin 64, v (h.lift (ix1 r) j) = _
  refine Finset.sum_congr rfl fun j _ => congrArg v ?_
  funext a
  apply Fin.ext
  match a with
  | ⟨0, _⟩ => rfl
  | ⟨1, _⟩ => rfl

/-- A sum along the last of three axes, read at a row and an object. -/
theorem chanSum (v : FVec Ideal S128x64x7 .f32) (h : S128x64x7.Reduces [2] S128x64) (hφ : FKind.Formats .f32)
    (hacc : (0x00000000#32 : BitVec 32) = FKind.add.neutral .f32 hφ) (r : Fin 128) (j : Fin 64) :
    multiReduction .add [2] S128x64 v 0x00000000#32 h hφ hacc (ix2 r j) = ∑ k : Fin 7, v (ix3 r j k) := by
  refine (Ideal.multiReduction_add_single v 0x00000000#32 h hφ hacc (ix2 r j)).trans ?_
  show ∑ k : Fin 7, v (h.lift (ix2 r j) k) = _
  refine Finset.sum_congr rfl fun k _ => congrArg v ?_
  funext a
  apply Fin.ext
  match a with
  | ⟨0, _⟩ => rfl
  | ⟨1, _⟩ => rfl
  | ⟨2, _⟩ => rfl

/-- The first seven channels of `pred`, of `gt`, and the two centre channels of `gt`, read through their slices. -/
theorem sliceP (x : S128x64x16.Idx → EReal) (h : S128x64x16.Slices ![0, 0, 0] S128x64x7) (r : Fin 128) (j : Fin 64) (k : Fin 7) :
    extractStridedSlice S128x64x7 ![0, 0, 0] x h (ix3 r j k) = x (ix3 r j (chP k)) :=
  extractStridedSlice_apply ![0, 0, 0] x h (ix3 r j k) (ix3 r j (chP k)) (fun a => match a with
    | ⟨0, _⟩ => by show r.val = 0 + r.val; omega
    | ⟨1, _⟩ => by show j.val = 0 + j.val; omega
    | ⟨2, _⟩ => by show k.val = 0 + k.val; omega)

theorem sliceG (x : S128x64x11.Idx → EReal) (h : S128x64x11.Slices ![0, 0, 0] S128x64x7) (r : Fin 128) (j : Fin 64) (k : Fin 7) :
    extractStridedSlice S128x64x7 ![0, 0, 0] x h (ix3 r j k) = x (ix3 r j (chG k)) :=
  extractStridedSlice_apply ![0, 0, 0] x h (ix3 r j k) (ix3 r j (chG k)) (fun a => match a with
    | ⟨0, _⟩ => by show r.val = 0 + r.val; omega
    | ⟨1, _⟩ => by show j.val = 0 + j.val; omega
    | ⟨2, _⟩ => by show k.val = 0 + k.val; omega)

theorem slice9 (x : S128x64x11.Idx → EReal) (h : S128x64x11.Slices ![0, 0, 9] S128x64x1) (r : Fin 128) (j : Fin 64) :
    extractStridedSlice S128x64x1 ![0, 0, 9] x h (ix3 r j (0 : Fin 1)) = x (ix3 r j (9 : Fin 11)) :=
  extractStridedSlice_apply ![0, 0, 9] x h (ix3 r j (0 : Fin 1)) (ix3 r j (9 : Fin 11)) (fun a => match a with
    | ⟨0, _⟩ => by show r.val = 0 + r.val; omega
    | ⟨1, _⟩ => by show j.val = 0 + j.val; omega
    | ⟨2, _⟩ => rfl)

theorem slice10 (x : S128x64x11.Idx → EReal) (h : S128x64x11.Slices ![0, 0, 10] S128x64x1) (r : Fin 128) (j : Fin 64) :
    extractStridedSlice S128x64x1 ![0, 0, 10] x h (ix3 r j (0 : Fin 1)) = x (ix3 r j (10 : Fin 11)) :=
  extractStridedSlice_apply ![0, 0, 10] x h (ix3 r j (0 : Fin 1)) (ix3 r j (10 : Fin 11)) (fun a => match a with
    | ⟨0, _⟩ => by show r.val = 0 + r.val; omega
    | ⟨1, _⟩ => by show j.val = 0 + j.val; omega
    | ⟨2, _⟩ => rfl)

/-- Dropping the trailing unit axis keeps the row and the object. -/
theorem dropUnit {α : Type} (v : S128x64x1.Idx → α) (h : S128x64x1.ShapeCasts S128x64) (r : Fin 128) (j : Fin 64) :
    shapeCast S128x64 v h (ix2 r j) = v (ix3 r j (0 : Fin 1)) :=
  shapeCast_apply v h (ix2 r j) (ix3 r j (0 : Fin 1))
    (by rewrite [Shape.rowMajor_val_three, Shape.rowMajor_val_two]; show (r.val * 64 + j.val) * 1 + 0 = r.val * 64 + j.val; omega)

theorem andi_apply {s : Shape} {w : Nat} (x y : IVec s w) (i : s.Idx) : andi x y i = IntOp.andi (x i) (y i) := rfl

/-- The body's term at row `r`: what the scratch held there plus the block's loss there. -/
theorem pay2_apply (x0 : Vec Ideal S128x64x16 .f32) (x1 : Vec Ideal S128x64x11 .f32) (acc : Vec Ideal S128 .f32) (r : Fin 128) :
    k0_pay2 (F := Ideal) x0 x1 acc (ix1 r) = acc (ix1 r) + loss x0 x1 r := by
  unfold k0_pay2
  dsimp only
  refine (congrFun (shapeCast_self _ _) (ix1 r)).trans ?_
  refine (congrArg (acc (ix1 r) + ·) (rowSum _ _ _ _ r)).trans ?_
  refine congrArg (acc (ix1 r) + ·) (Finset.sum_congr rfl fun j _ => ?_)
  unfold masked inside sqdist
  simp only [select_apply, andi_apply, cmpf_apply, broadcast_apply, dropUnit, slice9, slice10, Ideal.cmpf_def, Ideal.ofBits_def,
    Ideal.ofBits_zero_f32]
  refine congrArg (fun z => Scalar.select _ z 0) ((chanSum _ _ _ _ r j).trans ?_)
  simp only [mulf_apply, subf_apply, sliceP, sliceG]

/-- The vector stored at the first step is zero at every row. -/
theorem pay1_apply (r : Fin 128) : k0_pay1 (F := Ideal) (ix1 r) = 0 := by
  unfold k0_pay1
  refine (congrFun (shapeCast_self _ _) (ix1 r)).trans ?_
  exact Ideal.ofBits_zero_f32

end Cert.KernelIdeal.Payload

end
-- ==== Proof.KernelValue.lean ====
/-
  The kernel's result array, read off its run. The grid has two row blocks of 128 rows and, for each, 128 steps along
  the object axis, 64 objects a step. Step `n` reads rows `128 · (n / 128) + r` and objects `64 · (n % 128) + j` of the
  two arguments; the scratch vector is zero plus the block losses of the steps of the current row block so far; the
  last step of a row block writes the scratch to rows `128 · (n / 128) …` of the result. So the result holds every
  row's loss.
-/
import proofs.«148662_j59115929862965_2_alg».proof.Proof.Gen.KernelIdeal.Value
import proofs.«148662_j59115929862965_2_alg».proof.Proof.Spec
import proofs.«148662_j59115929862965_2_alg».proof.Proof.Pieces
import proofs.«148662_j59115929862965_2_alg».proof.Proof.Payload
import Idealize.ShloMosaic.Lib.Pipeline.Value
import Idealize.ShloMosaic.Lib.ValueIdx

noncomputable section

namespace Cert.KernelIdeal.LossValue

open Cert.KernelIdeal Cert.KernelIdeal.Gen Idealize.ShloMosaic Idealize.ShloMosaic.TcCoe Idealize.SL.Sem
open Idealize.ShloMosaic.ValueIdx Cert.LossSpec Cert.KernelIdeal.Pieces Cert.KernelIdeal.Payload
open Idealize.ShloMosaic.Pipeline (Dat)
open scoped BigOperators

variable (m : (ℓ : Loc nD τ sig) → Buf (Elt Ideal) ℓ) (ρ : Dev nD → PrngReg)

/-- The two argument arrays on core `c`. -/
abbrev argP (c : Dev nD) : S256x8192x16.Idx → EReal := m ((c : Thread nD τ).loc main_arg0)
abbrev argG (c : Dev nD) : S256x8192x11.Idx → EReal := m ((c : Thread nD τ).loc main_arg1)

/-- The block indices at step `t`: row block `t / 128`, object block `t % 128`, all channels. -/
theorem idx_facts : ∀ t : Fin cfg0.N,
    win0_0.index t (0 : Fin 3) = t.val / 128 ∧ win0_0.index t (1 : Fin 3) = t.val % 128 ∧ win0_0.index t (2 : Fin 3) = 0
    ∧ win0_1.index t (0 : Fin 3) = t.val / 128 ∧ win0_1.index t (1 : Fin 3) = t.val % 128 ∧ win0_1.index t (2 : Fin 3) = 0
    ∧ win0_2.index t (0 : Fin 1) = t.val / 128 :=
  (by decide +kernel : ∀ t : Fin grid0.N, _)

/-- Entry `(r, j, k)` of `pred`'s block at step `t` is entry `(128 · (t / 128) + r, 64 · (t % 128) + j, k)` of `pred`. -/
theorem blkP (c : Dev nD) (t : Fin cfg0.N) (r : Fin 128) (j : Fin 64) (k : Fin 16)
    (hb : 128 * (t.val / 128) + r.val < 256) (ho : 64 * (t.val % 128) + j.val < 8192) :
    (iblk m c 0 t : Vec Ideal S128x64x16 .f32) (ix3 r j k) = argP m c (ix3 ⟨128 * (t.val / 128) + r.val, hb⟩ ⟨64 * (t.val % 128) + j.val, ho⟩ k) := by
  obtain ⟨e0, e1, e2, -, -, -, -⟩ := idx_facts t
  unfold iblk
  rw [View.read_apply]
  show m ((c : Thread nD τ).loc main_arg0) _ = m ((c : Thread nD τ).loc main_arg0) _
  refine congrArg (m ((c : Thread nD τ).loc main_arg0)) ?_
  funext a
  apply Fin.ext
  match a with
  | ⟨0, _⟩ => show win0_0.index t (0 : Fin 3) * 128 + 1 * r.val = 128 * (t.val / 128) + r.val; omega
  | ⟨1, _⟩ => show win0_0.index t (1 : Fin 3) * 64 + 1 * j.val = 64 * (t.val % 128) + j.val; omega
  | ⟨2, _⟩ => show win0_0.index t (2 : Fin 3) * 16 + 1 * k.val = k.val; omega

/-- The same for `gt`'s block. -/
theorem blkG (c : Dev nD) (t : Fin cfg0.N) (r : Fin 128) (j : Fin 64) (k : Fin 11)
    (hb : 128 * (t.val / 128) + r.val < 256) (ho : 64 * (t.val % 128) + j.val < 8192) :
    (iblk m c 1 t : Vec Ideal S128x64x11 .f32) (ix3 r j k) = argG m c (ix3 ⟨128 * (t.val / 128) + r.val, hb⟩ ⟨64 * (t.val % 128) + j.val, ho⟩ k) := by
  obtain ⟨-, -, -, e0, e1, e2, -⟩ := idx_facts t
  unfold iblk
  rw [View.read_apply]
  show m ((c : Thread nD τ).loc main_arg1) _ = m ((c : Thread nD τ).loc main_arg1) _
  refine congrArg (m ((c : Thread nD τ).loc main_arg1)) ?_
  funext a
  apply Fin.ext
  match a with
  | ⟨0, _⟩ => show win0_1.index t (0 : Fin 3) * 128 + 1 * r.val = 128 * (t.val / 128) + r.val; omega
  | ⟨1, _⟩ => show win0_1.index t (1 : Fin 3) * 64 + 1 * j.val = 64 * (t.val % 128) + j.val; omega
  | ⟨2, _⟩ => show win0_1.index t (2 : Fin 3) * 11 + 1 * k.val = k.val; omega

/-- The loss of step `t`'s two blocks at row `r` is what the step adds at that row. -/
theorem blockLoss (c : Dev nD) (t : Fin cfg0.N) (r : Fin 128) :
    loss (B := 128) (O := 64) (iblk m c 0 t) (iblk m c 1 t) r = addend (argP m c) (argG m c) t.val r.val := by
  have hN : t.val < 256 := lt_of_lt_of_eq t.isLt (show cfg0.N = 256 from N_0)
  unfold loss addend
  rw [← Fin.sum_univ_eq_sum_range (fun j => maskedN (argP m c) (argG m c) (128 * (t.val / 128) + r.val) (64 * (t.val % 128) + j)) 64]
  refine Finset.sum_congr rfl fun j _ => ?_
  have hb : 128 * (t.val / 128) + r.val < 256 := by omega
  have ho : 64 * (t.val % 128) + j.val < 8192 := by omega
  refine (masked_congr _ _ (argP m c) (argG m c) r j ⟨_, hb⟩ ⟨_, ho⟩ (fun k => blkP m c t r j k hb ho) (fun k => blkG m c t r j k hb ho)).trans ?_
  exact (maskedN_of_lt (argP m c) (argG m c) ⟨_, hb⟩ ⟨_, ho⟩).symm

/-- The first step of a row block leaves zero plus its addend in the scratch, -/
theorem step_first (c : Dev nD) (n : Nat) (hb : n < cfg0.N) (h0 : n % 128 = 0) (acc : Vec Ideal S128 .f32) (r : Fin 128) :
    Value.scAt0_0 m c n hb acc (ix1 r) = 0 + addend (argP m c) (argG m c) n r.val := by
  have h1 : ¬n % 128 = 127 := by omega
  unfold Value.scAt0_0
  rw [dif_pos h0, dif_neg h1, scratch_A, pay2_apply, pay1_apply]
  exact congrArg (0 + ·) (blockLoss m c ⟨n, hb⟩ r)

/-- and every later step adds its addend to what the scratch held. -/
theorem step_next (c : Dev nD) (n : Nat) (hb : n < cfg0.N) (h0 : ¬n % 128 = 0) (acc : Vec Ideal S128 .f32) (r : Fin 128) :
    Value.scAt0_0 m c n hb acc (ix1 r) = acc (ix1 r) + addend (argP m c) (argG m c) n r.val := by
  unfold Value.scAt0_0
  rw [dif_neg h0]
  by_cases h1 : n % 128 = 127
  · rw [dif_pos h1, scratch_C, pay2_apply]
    exact congrArg (acc (ix1 r) + ·) (blockLoss m c ⟨n, hb⟩ r)
  · rw [dif_neg h1, scratch_B, pay2_apply]
    exact congrArg (acc (ix1 r) + ·) (blockLoss m c ⟨n, hb⟩ r)

/-- After step `t` the scratch holds, at row `r`, zero plus the addends of the steps of `t`'s row block up to `t`. -/
theorem scratch_after (c : Dev nD) (t : Fin cfg0.N) (r : Fin 128) :
    (outsAt0 m c t.val t.isLt).2 (ix1 r)
      = 0 + ∑ s ∈ Finset.range (t.val % 128 + 1), addend (argP m c) (argG m c) (128 * (t.val / 128) + s) r.val := by
  have hN : t.val < 256 := lt_of_lt_of_eq t.isLt (show cfg0.N = 256 from N_0)
  rw [Value.soutsAt0_0_eq m c t]
  exact Pipeline.accAt_add_apply (ι := S128.Idx) (β := EReal)
    (fun n h => Value.scAt0_0 m c n h (VS0_0.read (Elt Ideal) VS0_0.junk)) (Value.scAt0_0 m c)
    (fun _ => 0) (fun n i => addend (argP m c) (argG m c) n (i 0).val) (128 * (t.val / 128)) 127
    (fun h i => by
      obtain ⟨r', rfl⟩ : ∃ r' : Fin 128, i = ix1 r' := ⟨i 0, eq_ix1 i⟩
      exact step_first m c _ h (Nat.mul_mod_right _ _) _ r')
    (fun n h acc i hlt hle => by
      obtain ⟨r', rfl⟩ : ∃ r' : Fin 128, i = ix1 r' := ⟨i 0, eq_ix1 i⟩
      exact step_next m c n h (by omega) acc r')
    (t.val % 128) (by omega) _ (ix1 r)

/-- The result array this proof names: every row's loss of the two arguments. -/
abbrev result (c : Dev nD) : S256.Idx → EReal := G (argP m c) (argG m c)

/-- At the last step of a row block the output block is the scratch after that step. -/
theorem out_last (c : Dev nD) (t : Fin cfg0.N) (h0 : ¬t.val % 128 = 0) (h1 : t.val % 128 = 127) :
    out0_C_2 c (grid0.coords t) (ms0_0 t) (hs0_0 t) (ms0_1 t) (hs0_1 t) (ms0_2 t) (hs0_2 t) scM0_0 (Memref.isWhole_whole _)
        (fun h => h0 ((hcond0_0 t).mp h)) ((hcond0_1 t).mpr h1) (iblk m c 0 t) (iblk m c 1 t)
        (outsAt0 m c (t.val - 1) (Nat.lt_of_le_of_lt (Nat.sub_le _ _) t.isLt)).2
      = (outsAt0 m c t.val t.isLt).2 := by
  refine Eq.trans ?_ (congrArg Prod.snd (outsAt0_C m c t h0 h1)).symm
  dsimp only
  rw [out_C, scratch_C]

/-- What a writing step writes back is its block of the result: rows `128 · (t / 128) + r`, each at its loss. -/
theorem flushed_eq (c : Dev nD) (t : Fin cfg0.N) (hf : (cfg0.win 2).flush t = true) :
    (dats m 0 c).flushed 2 t = ((cfg0.win 2).blk t).view.read (Elt Ideal) (result m c) := by
  have hN : t.val < 256 := lt_of_lt_of_eq t.isLt (show cfg0.N = 256 from N_0)
  have h1 : t.val % 128 = 127 := (flush0_2 t).mp hf
  have h0 : ¬t.val % 128 = 0 := by omega
  obtain ⟨-, -, -, -, -, -, e⟩ := idx_facts t
  rw [Value.flushed2_C m c t h0 h1, out_last m c t h0 h1]
  funext y
  obtain ⟨r, rfl⟩ : ∃ r : Fin 128, y = ix1 r := ⟨y 0, eq_ix1 y⟩
  have hb : 128 * (t.val / 128) + r.val < 256 := by omega
  have hemb : ((cfg0.win 2).blk t).view.emb (ix1 r) = ix1 (⟨128 * (t.val / 128) + r.val, hb⟩ : Fin 256) := by
    funext a
    apply Fin.ext
    match a with
    | ⟨0, _⟩ => show win0_2.index t (0 : Fin 1) * 128 + 1 * r.val = 128 * (t.val / 128) + r.val; omega
  show (outsAt0 m c t.val t.isLt).2 (ix1 r) = result m c (((cfg0.win 2).blk t).view.emb (ix1 r))
  rw [hemb, scratch_after m c t r, h1]
  exact run_total (argP m c) (argG m c) (t.val / 128) r.val hb

/-- A row is in step `t`'s output block iff it lies in the block's range of rows. -/
theorem mem_blk (t : Fin cfg0.N) (i : S256.Idx) :
    i ∈ ((cfg0.win 2).blk t).view.set ↔ ∀ a : Fin 1, win0_2.index t a * S128.size a ≤ (i a).val ∧ (i a).val < win0_2.index t a * S128.size a + S128.size a := by
  show i ∈ ((View.whole main_v0).slice (win0_2.rect t)).set ↔ _
  rw [View.set_slice_whole, Rect.mem_set_unit]
  exact Iff.rfl

/-- Every row is written by the last step of its row block. -/
theorem cover (i : S256.Idx) : ∃ t : Fin cfg0.N, (cfg0.win 2).flush t = true ∧ i ∈ ((cfg0.win 2).blk t).view.set := by
  have hi : (i 0).val < 256 := (i 0).isLt
  have hN : cfg0.N = 256 := N_0
  refine ⟨⟨128 * ((i 0).val / 128) + 127, by omega⟩, (flush0_2 _).mpr (by show (128 * ((i 0).val / 128) + 127) % 128 = 127; omega), ?_⟩
  rw [mem_blk]
  obtain ⟨-, -, -, -, -, -, e⟩ := idx_facts ⟨128 * ((i 0).val / 128) + 127, by omega⟩
  intro a
  match a with
  | ⟨0, _⟩ =>
    show win0_2.index _ (0 : Fin 1) * 128 ≤ (i 0).val ∧ (i 0).val < win0_2.index _ (0 : Fin 1) * 128 + 128
    rw [e]
    show (128 * ((i 0).val / 128) + 127) / 128 * 128 ≤ (i 0).val ∧ (i 0).val < (128 * ((i 0).val / 128) + 127) / 128 * 128 + 128
    omega

/-- So after the run the result array holds every row's loss. -/
theorem final (c : Dev nD) : (dats m 0 c).arrAt 2 cfg0.N = result m c :=
  (dats m 0 c).arrAt_eq_of_cover 2 (result m c) (flushed_eq m c) cover

/-- The kernel's run, read: the result at the rows' losses, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.LossValue

end
-- ==== Proof.lean ====
/-
  The masked squared-error loss kernel against its reference. Both programs compute, for each of the 256 batch rows,
  the sum over the 8192 objects of the squared distance of the first seven channels of `pred` and `gt`, counted only
  where the object's centre lies strictly inside the 128 × 128 box. The reference sums a row's objects at once; the
  kernel walks them 64 at a time, keeping a running sum that starts at zero, and writes a row block's sums back after
  its last step. Over the extended reals addition is commutative and associative, so the sum of the 128 block sums is
  the sum over all objects: the two results are equal entry by entry, and the finiteness of the inputs is not needed.
  The ideal pass rewrote nothing, so there is nothing to preserve; the three programs' runs leave their arguments as
  they were.
-/
import proofs.«148662_j59115929862965_2_alg».proof.Defs
import proofs.«148662_j59115929862965_2_alg».proof.Proof.Gen.Kernel
import proofs.«148662_j59115929862965_2_alg».proof.Proof.Gen.Kernel.Skeleton
import proofs.«148662_j59115929862965_2_alg».proof.Proof.Gen.Kernel.Launch
import proofs.«148662_j59115929862965_2_alg».proof.Proof.Gen.Kernel.Points
import proofs.«148662_j59115929862965_2_alg».proof.Proof.Gen.Kernel.Frame
import proofs.«148662_j59115929862965_2_alg».proof.Proof.Gen.KernelIdeal
import proofs.«148662_j59115929862965_2_alg».proof.Proof.Gen.KernelIdeal.Skeleton
import proofs.«148662_j59115929862965_2_alg».proof.Proof.Gen.KernelIdeal.Launch
import proofs.«148662_j59115929862965_2_alg».proof.Proof.Gen.KernelIdeal.Points
import proofs.«148662_j59115929862965_2_alg».proof.Proof.Gen.KernelIdeal.Frame
import proofs.«148662_j59115929862965_2_alg».proof.Proof.Gen.ReferenceIdeal
import proofs.«148662_j59115929862965_2_alg».proof.Proof.Gen.Pre_finite_inputs
import proofs.«148662_j59115929862965_2_alg».proof.Proof.Gen.KernelIdeal.Value
import proofs.«148662_j59115929862965_2_alg».proof.Proof.Gen.ReferenceIdeal.Run
import proofs.«148662_j59115929862965_2_alg».proof.Proof.Gen.ReferenceIdeal.Read
import proofs.«148662_j59115929862965_2_alg».proof.Proof.Spec
import proofs.«148662_j59115929862965_2_alg».proof.Proof.RefValue
import proofs.«148662_j59115929862965_2_alg».proof.Proof.KernelValue
import Idealize.ShloMosaic.Adequacy
import Idealize.ShloMosaic.Init

noncomputable section

namespace Cert.Proof

open Idealize.ShloMosaic Idealize.SL.Sem Cert.Kernel

/-- The word-level kernel runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run ends, with the arguments unchanged. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization is the kernel's own text read over the extended reals. -/
theorem preserves : Cert.preserves_Kernel_KernelIdeal := trivial

/-- Over the extended reals both programs end with every row's loss of arguments that agree. -/
theorem algebraic : Cert.algebraic_KernelIdeal_ReferenceIdeal := by
  intro m ρ m' ρ' _ hagree
  refine ⟨_, Cert.KernelIdeal.LossValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.ReferenceIdeal.RefValue.ref_eq, (hagree c).1, (hagree c).2.1]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
